-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32768x512 .f32) (main_arg1 : FVec F S512x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S32768x512 : Shape := ⟨2, ![32768, 512]⟩
abbrev S512x512 : Shape := ⟨2, ![512, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S32768x512, .f32⟩
  | .local _ .vmem, ⟨0, _⟩ => ⟨S4096x512, .f32⟩
  | .local _ .vmem, ⟨1, _⟩ => ⟨S4096x512, .f32⟩
  | .local _ .vmem, ⟨2, _⟩ => ⟨S512x512, .f32⟩
  | .local _ .vmem, ⟨3, _⟩ => ⟨S4096x512, .f32⟩
  | .local _ .vmem, ⟨4, _⟩ => ⟨S4096x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S32768x512.size a
  hwx0_0 : ∀ i : grid0.Coords, EltTy.bits .f32 = 32 ∨ (Rect.block (s := S32768x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S32768x512.size a
  hwx0_2 : ∀ i : grid0.Coords, EltTy.bits .f32 = 32 ∨ (Rect.block (s := S32768x512) S4096x512.size (cc0_transform_2 i) (hinb0_2 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512x512, .f32⟩
  | .hbm, ⟨3, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.SignedProduct.lean ====
/-
  The matrix both programs compute: `x` times the matrix of signs of `W`.

  For `x` with `M` rows and 512 columns and `W` a 512 × 512 matrix, entry `(r, q)` of the result is
  `∑ k, x[r, k] · sign (W[k, q])` over the extended reals, where `sign` is `-1` below zero, `0` at zero and
  `1` above zero, the two infinities included. With exact arithmetic nothing is rounded, so this sum of 512
  products does not depend on how the rows of `x` are tiled: an entry reads one row of `x` and one column of
  `W`, and nothing else (`entry_congr`).
-/
import Idealize.ShloMosaic.PureOps.Ideal.Laws
import Idealize.ShloMosaic.Lib.ValueIdx

noncomputable section

namespace Cert.SignedProduct

open Idealize.ShloMosaic Idealize.ShloMosaic.ValueIdx

/-- Entry `(r, q)` of `x · sign W` for an `x` of `M` rows: the sum over the 512 shared coordinates `k` of
    `x[r, k] · sign (W[k, q])`. -/
def entry {M : Nat} (x : (⟨2, ![M, 512]⟩ : Shape).Idx → EReal) (w : (⟨2, ![512, 512]⟩ : Shape).Idx → EReal)
    (r : Fin M) (q : Fin 512) : EReal :=
  ∑ k : Fin 512, x (ix2 r k) * Ideal.sign (w (ix2 k q))

/-- An entry depends only on row `r` of `x` and column `q` of `W`: two pairs of matrices that agree there, the
    row taken at possibly different heights `r`, `r'` of matrices of different row counts, have the same entry. -/
theorem entry_congr {M M' : Nat} (x : (⟨2, ![M, 512]⟩ : Shape).Idx → EReal) (x' : (⟨2, ![M', 512]⟩ : Shape).Idx → EReal)
    (w w' : (⟨2, ![512, 512]⟩ : Shape).Idx → EReal) (r : Fin M) (r' : Fin M') (q q' : Fin 512)
    (hx : ∀ k : Fin 512, x (ix2 r k) = x' (ix2 r' k)) (hw : ∀ k : Fin 512, w (ix2 k q) = w' (ix2 k q')) :
    entry x w r q = entry x' w' r' q' :=
  Finset.sum_congr rfl fun k _ => by rw [hx k, hw k]

/-- The whole 32768 × 512 result, `x · sign W`, as one function of the two argument arrays. -/
def signedProduct (x : (⟨2, ![32768, 512]⟩ : Shape).Idx → EReal) (w : (⟨2, ![512, 512]⟩ : Shape).Idx → EReal) :
    (⟨2, ![32768, 512]⟩ : Shape).Idx → EReal :=
  fun i => entry x w ⟨(i 0).val, (i 0).isLt⟩ ⟨(i 1).val, (i 1).isLt⟩

end Cert.SignedProduct

end
-- ==== Proof.BlockProduct.lean ====
/-
  What the kernel body stores at one grid point, entry by entry.

  The body loads a 4096 × 512 block `a` of `x` and the whole 512 × 512 matrix `b = W`, replaces each entry of `b`
  by its sign — `1` carrying the entry's sign where its absolute value is above zero, the entry itself (which
  is zero) elsewhere — and multiplies the two into a zero accumulator. Over the extended reals the two changes
  of float format are the identity, the matrix product at `(r, q)` is the sum over the shared coordinate `k` of
  the products of the entries at `(r, k)` and `(k, q)`, and the selected value is the sign function at every
  extended real. So the stored block is `a · sign b`.
-/
import proofs.«177508_j76716705841731_2_alg».proof.Proof.Gen.KernelIdeal.Skeleton
import proofs.«177508_j76716705841731_2_alg».proof.Proof.SignedProduct
import Idealize.ShloMosaic.PureOps.Ideal.Laws
import Idealize.ShloMosaic.Lib.ValueIdx

noncomputable section

namespace Cert.KernelIdeal.BlockProduct

open Cert.KernelIdeal Cert.KernelIdeal.Gen Idealize.ShloMosaic Idealize.ShloMosaic.ValueIdx

local notation "D" => dot_S4096x512_S512x512_S4096x512_1_0_0_1_n_n

/-- The left operand's index at output entry `j` and shared coordinate `k`: row `j 0`, column `k`. -/
abbrev lft (j : S4096x512.Idx) (k : Fin 512) : S4096x512.Idx := ix2 ⟨(j 0).val, (j 0).isLt⟩ k
/-- The right operand's index at output entry `j` and shared coordinate `k`: row `k`, column `j 1`. -/
abbrev rgt (j : S4096x512.Idx) (k : Fin 512) : S512x512.Idx := ix2 k ⟨(j 1).val, (j 1).isLt⟩

theorem lhs_row (j : S4096x512.Idx) (q : (D).contr.Idx) : ((D).lhsIdx j q 0).val = (j 0).val := by
  unfold DotDims.lhsIdx
  rw [dif_neg (show ¬(0 : Fin S4096x512.rank) ∈ (D).lhsBatch by decide), dif_pos (show (0 : Fin S4096x512.rank) ∈ (D).lhsNonContracting by decide)]
  rfl
theorem lhs_col (j : S4096x512.Idx) (q : (D).contr.Idx) : ((D).lhsIdx j q 1).val = (q ⟨0, by decide⟩).val :=
  (D).lhsIdx_val_of_single rfl j q
theorem rhs_row (j : S4096x512.Idx) (q : (D).contr.Idx) : ((D).rhsIdx j q 0).val = (q ⟨0, by decide⟩).val :=
  (D).rhsIdx_val_of_single rfl j q
theorem rhs_col (j : S4096x512.Idx) (q : (D).contr.Idx) : ((D).rhsIdx j q 1).val = (j 1).val := by
  unfold DotDims.rhsIdx
  rw [dif_neg (show ¬(1 : Fin S512x512.rank) ∈ (D).rhsBatch by decide), dif_pos (show (1 : Fin S512x512.rank) ∈ (D).rhsNonContracting by decide)]
  rfl

/-- The stored block at entry `j`: the sum over `k` of the loaded block of `x` at `(j 0, k)` times the sign of the
    loaded `W` at `(k, j 1)`. -/
theorem pay_apply (a : Vec Ideal S4096x512 .f32) (b : Vec Ideal S512x512 .f32) (j : S4096x512.Idx) :
    k0_pay1 (F := Ideal) a b j = ∑ k : Fin 512, a (lft j k) * Ideal.sign (b (rgt j k)) := by
  unfold k0_pay1
  simp only [matmul]
  rw [Ideal.matmul_constant_zero_apply, ← Equiv.sum_comp (contrEquiv1 (D) 512 rfl rfl).symm]
  refine Finset.sum_congr rfl fun k _ => ?_
  have hk := contrEquiv1_symm_val (D) 512 rfl rfl k
  have el : (D).lhsIdx j ((contrEquiv1 (D) 512 rfl rfl).symm k) = lft j k := funext fun d => Fin.ext (by
    match d with
    | ⟨0, _⟩ => exact lhs_row _ _
    | ⟨1, _⟩ => exact (lhs_col _ _).trans hk)
  have er : (D).rhsIdx j ((contrEquiv1 (D) 512 rfl rfl).symm k) = rgt j k := funext fun d => Fin.ext (by
    match d with
    | ⟨0, _⟩ => exact (rhs_row _ _).trans hk
    | ⟨1, _⟩ => exact rhs_col _ _)
  rw [el, er]
  exact congrArg (a (lft j k) * ·) (Ideal.jnp_sign_eq_sign_f32 (b (rgt j k)))

/-- So the stored block is `a · sign b`, entry by entry. -/
theorem pay_entry (a : Vec Ideal S4096x512 .f32) (b : Vec Ideal S512x512 .f32) (j : S4096x512.Idx) :
    k0_pay1 (F := Ideal) a b j = Cert.SignedProduct.entry a b ⟨(j 0).val, (j 0).isLt⟩ ⟨(j 1).val, (j 1).isLt⟩ :=
  pay_apply a b j

end Cert.KernelIdeal.BlockProduct

end
-- ==== Proof.ArrayProduct.lean ====
/-
  From the blocks the grid points write back to the whole result array.

  The grid has 8 points. Point `t` is given rows `4096·t … 4096·t + 4095` of `x` (all 512 columns), the whole
  of `W` at every point, and writes rows `4096·t … 4096·t + 4095` of the result. An entry of `x · sign W` reads one
  row of `x` and one column of `W`, so the block the body stores — the block of `x` times `sign W` — is exactly
  that band of rows of `x · sign W` of the whole arrays. The 8 bands cover the 32768 rows (row `r` lies in band
  `r / 4096`), so after the run the result array is `x · sign W`.
-/
import proofs.«177508_j76716705841731_2_alg».proof.Proof.Gen.KernelIdeal.Value
import proofs.«177508_j76716705841731_2_alg».proof.Proof.BlockProduct
import proofs.«177508_j76716705841731_2_alg».proof.Proof.SignedProduct
import Idealize.ShloMosaic.Lib.Pipeline.Value

noncomputable section

namespace Cert.KernelIdeal.ArrayProduct

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.SignedProduct (signedProduct entry entry_congr)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the 8 grid points: the block of `x` moves down with the result's block and stays in
    column block 0; the block of `W` is block (0, 0) at every point; the result's block stays in column block 0 and its
    row block is at most 7. -/
theorem index_maps : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every band of rows is some grid point's. -/
theorem band_onto : ∀ b : Fin 8, ∃ t : Fin cfg0.N, win0_2.index t = ![b.val, 0] :=
  (by decide +kernel : ∀ b : Fin 8, ∃ t : Fin grid0.N, win0_2.index t = ![b.val, 0])

/-- The block of `x` at point `t`, at `y`, is `x` at the array index `i` whose row is the block's first row plus `y`'s and
    whose column is the block's first column plus `y`'s. -/
theorem xblock_apply (c : Dev nD) (t : Fin cfg0.N) (y : S4096x512.Idx) (i : S32768x512.Idx)
    (h0 : (i 0).val = win0_0.index t (0 : Fin 2) * 4096 + (y 0).val)
    (h1 : (i 1).val = win0_0.index t (1 : Fin 2) * 512 + (y 1).val) :
    (iblk m c 0 t : Vec Ideal S4096x512 .f32) y = (V m c main_arg0 : S32768x512.Idx → Elt Ideal .f32) i := by
  unfold iblk
  rw [View.read_apply]
  show V m c main_arg0 _ = V m c main_arg0 _
  congr 1
  funext a
  apply Fin.ext
  match a with
  | ⟨0, _⟩ => show win0_0.index t (0 : Fin 2) * 4096 + 1 * (y 0).val = (i 0).val; omega
  | ⟨1, _⟩ => show win0_0.index t (1 : Fin 2) * 512 + 1 * (y 1).val = (i 1).val; omega

/-- The block of `W` at point `t`, likewise. -/
theorem wblock_apply (c : Dev nD) (t : Fin cfg0.N) (y : S512x512.Idx) (i : S512x512.Idx)
    (h0 : (i 0).val = win0_1.index t (0 : Fin 2) * 512 + (y 0).val)
    (h1 : (i 1).val = win0_1.index t (1 : Fin 2) * 512 + (y 1).val) :
    (iblk m c 1 t : Vec Ideal S512x512 .f32) y = (V m c main_arg1 : S512x512.Idx → Elt Ideal .f32) i := by
  unfold iblk
  rw [View.read_apply]
  show V m c main_arg1 _ = V m c main_arg1 _
  congr 1
  funext a
  apply Fin.ext
  match a with
  | ⟨0, _⟩ => show win0_1.index t (0 : Fin 2) * 512 + 1 * (y 0).val = (i 0).val; omega
  | ⟨1, _⟩ => show win0_1.index t (1 : Fin 2) * 512 + 1 * (y 1).val = (i 1).val; omega

/-- What point `t` writes back is its band of rows of `x · sign W` of the whole argument arrays. -/
theorem flushed_eq (c : Dev nD) (t : Fin cfg0.N) :
    (dats m 0 c).flushed 2 t
      = ((cfg0.win 2).blk t).view.read (Elt Ideal) (signedProduct (V m c main_arg0) (V m c main_arg1)) := by
  rw [flushed2]
  unfold out0_2
  rw [View.canon_unit_zero zero_offsets]
  simp only [View.ld_unit_zero (S := S4096x512) zero_offsets, View.ld_unit_zero (S := S512x512) zero_offsets]
  obtain ⟨e0, e1, e2, e3, e4, e5⟩ := index_maps t
  funext j
  show k0_pay1 (iblk m c 0 t) (iblk m c 1 t) j
    = signedProduct (V m c main_arg0) (V m c main_arg1) (((cfg0.win 2).blk t).view.emb j)
  have hr : ((((cfg0.win 2).blk t).view.emb j) 0).val = win0_2.index t (0 : Fin 2) * 4096 + 1 * (j 0).val := rfl
  have hq : ((((cfg0.win 2).blk t).view.emb j) 1).val = win0_2.index t (1 : Fin 2) * 512 + 1 * (j 1).val := rfl
  refine (BlockProduct.pay_entry (iblk m c 0 t) (iblk m c 1 t) j).trans ?_
  unfold signedProduct
  refine entry_congr _ _ _ _ _ _ _ _ (fun k => ?_) (fun k => ?_)
  · refine xblock_apply m c t _ _ ?_ ?_
    · show ((((cfg0.win 2).blk t).view.emb j) 0).val = win0_0.index t (0 : Fin 2) * 4096 + (j 0).val
      omega
    · show k.val = win0_0.index t (1 : Fin 2) * 512 + k.val
      omega
  · refine wblock_apply m c t _ _ ?_ ?_
    · show k.val = win0_1.index t (0 : Fin 2) * 512 + k.val
      omega
    · show ((((cfg0.win 2).blk t).view.emb j) 1).val = win0_1.index t (1 : Fin 2) * 512 + (j 1).val
      omega

/-- An index of the result array is in point `t`'s block iff each coordinate is in the block's range on its axis. -/
theorem mem_blk (t : Fin cfg0.N) (i : S32768x512.Idx) :
    i ∈ ((cfg0.win 2).blk t).view.set ↔ ∀ a : Fin 2, win0_2.index t a * S4096x512.size a ≤ (i a).val ∧ (i a).val < win0_2.index t a * S4096x512.size a + S4096x512.size a := by
  show i ∈ ((View.whole main_v0).slice (win0_2.rect t)).set ↔ _
  rw [View.set_slice_whole, Rect.mem_set_unit]
  exact Iff.rfl

/-- Every index of the result array lies in the block of the point whose band holds its row. -/
theorem cover (i : S32768x512.Idx) :
    ∃ t : Fin cfg0.N, (cfg0.win 2).flush t = true ∧ i ∈ ((cfg0.win 2).blk t).view.set := by
  have hi0 : (i 0).val < 32768 := (i 0).isLt
  have hi1 : (i 1).val < 512 := (i 1).isLt
  obtain ⟨t, ht⟩ := band_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 512 ≤ (i 1).val ∧ (i 1).val < win0_2.index t (1 : Fin 2) * 512 + 512; omega

/-- The result array after the run is `x · sign W` of the argument arrays. -/
theorem final (c : Dev nD) :
    (dats m 0 c).arrAt 2 cfg0.N = signedProduct (V m c main_arg0) (V m c main_arg1) :=
  (dats m 0 c).arrAt_eq_of_cover 2 (signedProduct (V m c main_arg0) (V m c main_arg1)) (fun t _ => flushed_eq m c t) cover

/-- The kernel's run: every weakly fair execution ends with the result array at `x · sign W` of the argument arrays as
    launched, and the argument arrays unchanged. -/
theorem run : θ_run defs (onTc (τ := τ) (main (F := Ideal))) ⟨m, fun _ => 0, ρ⟩ fun r => ∀ c : Dev nD,
      r.2.mem ((c : Thread nD τ).loc main_v0)
        = signedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayProduct

end
-- ==== Proof.ReferenceProduct.lean ====
/-
  The reference computes `x · sign W`.

  Its two host operations are the sign of `W`, entry by entry, and one matrix product of `x` with that matrix,
  contracting the columns of `x` against the rows of the signs. Over the extended reals the product at
  `(r, q)` is the sum over `k` of `x[r, k] · sign (W[k, q])`: the specification's entry.
-/
import proofs.«177508_j76716705841731_2_alg».proof.Proof.Gen.ReferenceIdeal.Read
import proofs.«177508_j76716705841731_2_alg».proof.Proof.SignedProduct

noncomputable section

namespace Cert.ReferenceIdeal.Product

open Cert.ReferenceIdeal Cert.ReferenceIdeal.Gen Cert.ReferenceIdeal.Read Idealize.ShloMosaic Idealize.ShloMosaic.ValueIdx

/-- The reference's result, as a function of the two argument arrays, is `x · sign W`. -/
theorem val_eq (x : (⟨S32768x512, .f32⟩ : BufTy).Contents (Elt Ideal)) (w : (⟨S512x512, .f32⟩ : BufTy).Contents (Elt Ideal)) :
    val_main_v1 (F := Ideal) x w = Cert.SignedProduct.signedProduct x w := by
  funext i
  have el : ∀ k : Fin 512, lidx_main_v1 i k = ix2 ⟨(i 0).val, (i 0).isLt⟩ k := fun k =>
    funext fun a => Fin.ext (by match a with | ⟨0, _⟩ => rfl | ⟨1, _⟩ => rfl)
  have er : ∀ k : Fin 512, ridx_main_v1 i k = ix2 k ⟨(i 1).val, (i 1).isLt⟩ := fun k =>
    funext fun a => Fin.ext (by match a with | ⟨0, _⟩ => rfl | ⟨1, _⟩ => rfl)
  rw [val_main_v1_apply]
  unfold Cert.SignedProduct.signedProduct Cert.SignedProduct.entry
  refine Finset.sum_congr rfl fun k _ => ?_
  rw [el k, er k]
  rfl

end Cert.ReferenceIdeal.Product

end
-- ==== Proof.lean ====
/-
  A linear layer with binarized weights: `out = x · sign W`, for `x` of 32768 × 512 and `W` of 512 × 512.

  The kernel walks the rows of `x` in 8 bands of 4096 rows. At each band it takes the sign of every entry of `W`
  (`1` with the entry's sign bit where the entry's absolute value is above zero, the entry itself — zero — elsewhere),
  narrows both operands to bfloat16 and multiplies them into a zero accumulator of float32. The reference takes the
  sign of `W` once and multiplies the whole of `x` by it.

  Over the extended reals a change of float format is the identity and a matrix product is the plain sum of
  products, so both programs compute, at row `r` and column `q`, the sum over `k` of `x[r, k] · sign (W[k, q])`
  (`Cert.SignedProduct`): the kernel band by band (`Cert.KernelIdeal.BlockProduct` for one band,
  `Cert.KernelIdeal.ArrayProduct` for the 8 bands together), the reference at once
  (`Cert.ReferenceIdeal.Product`). The sign the kernel builds from the sign bit and the host's sign function are
  the same function at every extended real, zero and the two infinities included, and no algebraic law is
  needed beyond that: the two sums have the same terms in the same order. Finiteness of the inputs is not used.

  The one rewrite of the idealization — reading "1.0 with the sign bit of an entry" as "-1 if the entry is below
  zero, else 1" — is the sign-bit rule's own statement (`preserves`).
-/
import proofs.«177508_j76716705841731_2_alg».proof.Defs
import proofs.«177508_j76716705841731_2_alg».proof.Proof.Gen.Kernel
import proofs.«177508_j76716705841731_2_alg».proof.Proof.Gen.Kernel.Skeleton
import proofs.«177508_j76716705841731_2_alg».proof.Proof.Gen.Kernel.Launch
import proofs.«177508_j76716705841731_2_alg».proof.Proof.Gen.Kernel.Points
import proofs.«177508_j76716705841731_2_alg».proof.Proof.Gen.Kernel.Frame
import proofs.«177508_j76716705841731_2_alg».proof.Proof.Gen.KernelIdeal
import proofs.«177508_j76716705841731_2_alg».proof.Proof.Gen.KernelIdeal.Skeleton
import proofs.«177508_j76716705841731_2_alg».proof.Proof.Gen.KernelIdeal.Launch
import proofs.«177508_j76716705841731_2_alg».proof.Proof.Gen.KernelIdeal.Points
import proofs.«177508_j76716705841731_2_alg».proof.Proof.Gen.KernelIdeal.Frame
import proofs.«177508_j76716705841731_2_alg».proof.Proof.Gen.ReferenceIdeal
import proofs.«177508_j76716705841731_2_alg».proof.Proof.Gen.KernelIdeal.Value
import proofs.«177508_j76716705841731_2_alg».proof.Proof.Gen.ReferenceIdeal.Run
import proofs.«177508_j76716705841731_2_alg».proof.Proof.Gen.ReferenceIdeal.Read
import proofs.«177508_j76716705841731_2_alg».proof.Proof.Gen.Pre_finite_inputs
import proofs.«177508_j76716705841731_2_alg».proof.Proof.SignedProduct
import proofs.«177508_j76716705841731_2_alg».proof.Proof.ArrayProduct
import proofs.«177508_j76716705841731_2_alg».proof.Proof.ReferenceProduct
import Idealize.ShloMosaic.Adequacy
import Idealize.ShloMosaic.Init

noncomputable section

namespace Cert.Proof

open Idealize.ShloMosaic Idealize.SL.Sem

/-- The kernel as printed runs to the end without a fault and leaves `x` and `W` as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: `1.0` carrying the sign bit of an entry of `W` is `-1` where the entry is
    below zero and `1` elsewhere. -/
theorem preserves : Cert.preserves_Kernel_KernelIdeal :=
  IdealRules.sign_bit.statement Cert.KernelIdeal.S512x512 .f32

/-- Both idealized programs end with the result array at `x · sign W` of their argument arrays, which agree. -/
theorem algebraic : Cert.algebraic_KernelIdeal_ReferenceIdeal := by
  intro m ρ m' ρ' _ hagree
  refine ⟨_, Cert.KernelIdeal.ArrayProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Product.val_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
